-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩

abbrev nBuf : Space → Nat
  | .hbm => 13
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .bf16⟩
  | .hbm, ⟨7, _⟩ => ⟨S4096x4096, .bf16⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S8192x4096, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x1024_o0_0_S256x128 : S256x1024.Slices ![0, 0] S256x128
  reduces_S256x128_S256 : S256x128.Reduces [1] S256
  shapeCasts_S256_S256x1 : S256.ShapeCasts S256x1
  broadcasts_S256x1_S256x128 : S256x1.Broadcasts S256x128
  inb_S1x1024_S1x128_0_0 : ∀ a, (![0, 0] : Fin 2 → Nat) a + S1x128.size a ≤ S1x1024.size a
  h_S1x128 : 0 < S1x128.numel
  shapeCasts_S1x128_S1x128 : S1x128.ShapeCasts S1x128
  broadcasts_S1x128_S256x128 : S1x128.Broadcasts S256x128
  inb_S256x1024_S256x128_0_0 : ∀ a, (![0, 0] : Fin 2 → Nat) a + S256x128.size a ≤ S256x1024.size a
  h_S256x128 : 0 < S256x128.numel
  slices_S256x1024_o0_128_S256x128 : S256x1024.Slices ![0, 128] S256x128
  inb_S1x1024_S1x128_0_128 : ∀ a, (![0, 128] : Fin 2 → Nat) a + S1x128.size a ≤ S1x1024.size a
  inb_S256x1024_S256x128_0_128 : ∀ a, (![0, 128] : Fin 2 → Nat) a + S256x128.size a ≤ S256x1024.size a
  slices_S256x1024_o0_256_S256x128 : S256x1024.Slices ![0, 256] S256x128
  inb_S1x1024_S1x128_0_256 : ∀ a, (![0, 256] : Fin 2 → Nat) a + S1x128.size a ≤ S1x1024.size a
  inb_S256x1024_S256x128_0_256 : ∀ a, (![0, 256] : Fin 2 → Nat) a + S256x128.size a ≤ S256x1024.size a
  slices_S256x1024_o0_384_S256x128 : S256x1024.Slices ![0, 384] S256x128
  inb_S1x1024_S1x128_0_384 : ∀ a, (![0, 384] : Fin 2 → Nat) a + S1x128.size a ≤ S1x1024.size a
  inb_S256x1024_S256x128_0_384 : ∀ a, (![0, 384] : Fin 2 → Nat) a + S256x128.size a ≤ S256x1024.size a
  slices_S256x1024_o0_512_S256x128 : S256x1024.Slices ![0, 512] S256x128
  inb_S1x1024_S1x128_0_512 : ∀ a, (![0, 512] : Fin 2 → Nat) a + S1x128.size a ≤ S1x1024.size a
  inb_S256x1024_S256x128_0_512 : ∀ a, (![0, 512] : Fin 2 → Nat) a + S256x128.size a ≤ S256x1024.size a
  slices_S256x1024_o0_640_S256x128 : S256x1024.Slices ![0, 640] S256x128
  inb_S1x1024_S1x128_0_640 : ∀ a, (![0, 640] : Fin 2 → Nat) a + S1x128.size a ≤ S1x1024.size a
  inb_S256x1024_S256x128_0_640 : ∀ a, (![0, 640] : Fin 2 → Nat) a + S256x128.size a ≤ S256x1024.size a
  slices_S256x1024_o0_768_S256x128 : S256x1024.Slices ![0, 768] S256x128
  inb_S1x1024_S1x128_0_768 : ∀ a, (![0, 768] : Fin 2 → Nat) a + S1x128.size a ≤ S1x1024.size a
  inb_S256x1024_S256x128_0_768 : ∀ a, (![0, 768] : Fin 2 → Nat) a + S256x128.size a ≤ S256x1024.size a
  slices_S256x1024_o0_896_S256x128 : S256x1024.Slices ![0, 896] S256x128
  inb_S1x1024_S1x128_0_896 : ∀ a, (![0, 896] : Fin 2 → Nat) a + S1x128.size a ≤ S1x1024.size a
  inb_S256x1024_S256x128_0_896 : ∀ a, (![0, 896] : Fin 2 → Nat) a + S256x128.size a ≤ S256x1024.size a
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x4096.size a
  hwx0_6 : ∀ i : grid0.Coords, EltTy.bits .f32 = 32 ∨ (Rect.block (s := S8192x4096) S256x1024.size (cc0_transform_6 i) (hinb0_6 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x32x128, .f32⟩
  | .hbm, ⟨11, _⟩ => ⟨S_, .f32⟩
  | .hbm, ⟨12, _⟩ => ⟨S8192x32, .f32⟩
  | .hbm, ⟨13, _⟩ => ⟨S8192x32x1, .f32⟩
  | .hbm, ⟨14, _⟩ => ⟨S_, .f32⟩
  | .hbm, ⟨15, _⟩ => ⟨S8192x32x1, .f32⟩
  | .hbm, ⟨16, _⟩ => ⟨S8192x32x1, .f32⟩
  | .hbm, ⟨17, _⟩ => ⟨S8192x32x128, .f32⟩
  | .hbm, ⟨18, _⟩ => ⟨S_, .f32⟩
  | .hbm, ⟨19, _⟩ => ⟨S8192x32, .f32⟩
  | .hbm, ⟨20, _⟩ => ⟨S8192x32x1, .f32⟩
  | .hbm, ⟨21, _⟩ => ⟨S_, .f32⟩
  | .hbm, ⟨22, _⟩ => ⟨S8192x32x1, .f32⟩
  | .hbm, ⟨23, _⟩ => ⟨S8192x32x1, .f32⟩
  | .hbm, ⟨24, _⟩ => ⟨S8192x32x1, .f32⟩
  | .hbm, ⟨25, _⟩ => ⟨S8192x32x1, .f32⟩
  | .hbm, ⟨26, _⟩ => ⟨S8192x32x128, .f32⟩
  | .hbm, ⟨27, _⟩ => ⟨S8192x32x128, .f32⟩
  | .hbm, ⟨28, _⟩ => ⟨S_, .f32⟩
  | .hbm, ⟨29, _⟩ => ⟨S8192x32x1, .f32⟩
  | .hbm, ⟨30, _⟩ => ⟨S8192x32x1, .f32⟩
  | .hbm, ⟨31, _⟩ => ⟨S8192x32x1, .f32⟩
  | .hbm, ⟨32, _⟩ => ⟨S8192x32x128, .f32⟩
  | .hbm, ⟨33, _⟩ => ⟨S8192x32x128, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S1x4096, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S_, .f32⟩
  | .hbm, ⟨59, _⟩ => ⟨S8192x4096, .f32⟩
  | .hbm, ⟨60, _⟩ => ⟨S8192x4096, .f32⟩
  | .hbm, ⟨61, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.GroupNormSwish.lean ====
/-
  The function both programs compute, over the extended reals.

  A row `b` of the linear layer `h b c = (∑ k, X b k * W c k) + bias c` is cut into 32 groups of 128 consecutive
  channels.  Within a group the row is normalised by its own statistics,
  `mean = (∑ h) / 128`, `var = (∑ h²) / 128 − mean²`, `(h − mean) · (var + ε)^(-1/2)`, scaled and shifted per channel,
  passed through `z ↦ z · σ(z)`, multiplied per channel, and passed through `z ↦ z · σ(z)` again, where
  `σ(z) = 1 / (1 + e^(−z))` with its limits at the infinities.

  Everything is stated over curried coordinates (`Fin 8192`, `Fin 4096`, a group `Fin 32` and a lane `Fin 128`), so the
  statement mentions neither program.  The two literals are kept as their binary words: both programs spell the
  same words, so they are never evaluated.
-/
import Idealize.ShloMosaic.PureOps.Ideal
import Idealize.ShloMosaic.Lib.ValueIdx

open scoped BigOperators

noncomputable section

namespace Cert.GroupNormSwish

open Idealize.ShloMosaic

/-- The group size, 128, as the float word both programs divide by. -/
abbrev width : EReal := Ideal.ofBits .f32 0x43000000#32

/-- The variance offset ε, as the float word both programs add. -/
abbrev eps : EReal := Ideal.ofBits .f32 0x3727C5AC#32

/-- `z ↦ z · σ(z)`. -/
def swish (z : EReal) : EReal := z * Ideal.logistic z

/-- A group's mean from the sum of its entries. -/
def mean (s : EReal) : EReal := Ideal.div s width

/-- A group's `(var + ε)^(-1/2)` from the sum of its entries and the sum of their squares. -/
def rstd (s sq : EReal) : EReal := Ideal.rsqrt (Ideal.div sq width - mean s * mean s + eps)

/-- One entry through the chain, given its group's statistics and its channel's three parameters. -/
def act (h mu rs gw gb mw : EReal) : EReal := swish (swish ((h - mu) * rs * gw + gb) * mw)

/-- One group of one row: lane `q` of the 128 entries `r`, normalised by the statistics of `r`. -/
def group (r : Fin 128 → EReal) (q : Fin 128) (gw gb mw : EReal) : EReal :=
  act (r q) (mean (∑ j, r j)) (rstd (∑ j, r j) (∑ j, r j * r j)) gw gb mw

/-- Channel `128 g + j`. -/
def chan (g : Fin 32) (j : Fin 128) : Fin 4096 := ⟨g.val * 128 + j.val, by have := g.isLt; have := j.isLt; omega⟩

/-- The linear layer. -/
def lin (X : Fin 8192 → Fin 4096 → EReal) (W : Fin 4096 → Fin 4096 → EReal) (bias : Fin 4096 → EReal)
    (b : Fin 8192) (c : Fin 4096) : EReal :=
  (∑ k : Fin 4096, X b k * W c k) + bias c

/-- The result at row `b`, group `g`, lane `q`. -/
def result (X : Fin 8192 → Fin 4096 → EReal) (W : Fin 4096 → Fin 4096 → EReal) (bias gnw gnb mul : Fin 4096 → EReal)
    (b : Fin 8192) (g : Fin 32) (q : Fin 128) : EReal :=
  group (fun j => lin X W bias b (chan g j)) q (gnw (chan g q)) (gnb (chan g q)) (mul (chan g q))

/-- THE RESULT ARRAY as one function of the six argument arrays: entry `(b, c)` is `result` at row `b`, group
    `c / 128`, lane `c % 128`. -/
def arrayFn (X : (⟨2, ![8192, 4096]⟩ : Shape).Idx → EReal) (W : (⟨2, ![4096, 4096]⟩ : Shape).Idx → EReal)
    (bias gnw gnb mul : (⟨1, ![4096]⟩ : Shape).Idx → EReal) (i : (⟨2, ![8192, 4096]⟩ : Shape).Idx) : EReal :=
  result (fun b k => X (ValueIdx.ix2 b k)) (fun c k => W (ValueIdx.ix2 c k)) (fun c => bias (ValueIdx.ix1 c))
    (fun c => gnw (ValueIdx.ix1 c)) (fun c => gnb (ValueIdx.ix1 c)) (fun c => mul (ValueIdx.ix1 c))
    (⟨(i 0).val, (i 0).isLt⟩ : Fin 8192)
    (⟨(i 1).val / 128, by have h : (i 1).val < 4096 := (i 1).isLt; omega⟩ : Fin 32)
    (⟨(i 1).val % 128, Nat.mod_lt _ (by decide)⟩ : Fin 128)

end Cert.GroupNormSwish

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.GroupChain.lean ====
/-
  One group of the kernel's block, as the kernel computes it.

  The kernel normalises a 256 × 128 slice `v` of its linear block: row sums and row sums of squares along the 128
  lanes, each kept as a 256 × 1 column and divided by 128; the column of `(var + ε)^(-1/2)`; then, entry by entry,
  `(v − mean) · rstd · gw + gb`, `z · σ(z)`, `· mw`, `z · σ(z)`, with the three parameter rows `gw gb mw` (1 × 128)
  repeated down the 256 rows.  `chain` is that sequence of operations, in the order the kernel applies them, at any
  float instance; `chain_apply` reads it at the extended reals: entry `(p, q)` is `GroupNormSwish.group` of row `p`
  of the slice at lane `q`, with the parameters at lane `q`.
-/
import proofs.«163070_j58128087384630_2_alg».proof.KernelIdeal
import proofs.«163070_j58128087384630_2_alg».proof.Proof.Gen.KernelIdeal
import proofs.«163070_j58128087384630_2_alg».proof.Proof.GroupNormSwish
import proofs.«163070_j58128087384630_2_alg».proof.Proof.LibKeepdims
import Idealize.ShloMosaic.Lib.ValueLayout
import Idealize.ShloMosaic.Lib.ValueIdx
import Idealize.ShloMosaic.Lib.Pipeline.Value

open scoped BigOperators

noncomputable section

namespace Cert.GroupNormSwish

open Cert.KernelIdeal Cert.KernelIdeal.Gen Idealize.ShloMosaic Idealize.ShloMosaic.ValueIdx

variable {F : FTy → Type} [FloatOps F]

/-- The kernel's operations on one slice `v` of the linear block and the three parameter rows. -/
def chain (v : FVec F S256x128 .f32) (gw gb mw : Vec F S1x128 .f32) : FVec F S256x128 .f32 :=
  have s : FVec F S256 .f32 := multiReduction .add [1] S256 v 0x00000000#32 reduces_S256x128_S256 (.inl rfl) rfl
  have sc : FVec F S256x1 .f32 := shapeCast S256x1 s shapeCasts_S256_S256x1
  have mu : FVec F S256x1 .f32 := divf sc (broadcast S256x1 (Scalar.ofBits .f32 0x43000000#32))
  have q : FVec F S256 .f32 := multiReduction .add [1] S256 (mulf v v) 0x00000000#32 reduces_S256x128_S256 (.inl rfl) rfl
  have qc : FVec F S256x1 .f32 := shapeCast S256x1 q shapeCasts_S256_S256x1
  have ms : FVec F S256x1 .f32 := divf qc (broadcast S256x1 (Scalar.ofBits .f32 0x43000000#32))
  have var : FVec F S256x1 .f32 := subf ms (mulf mu mu)
  have cen : FVec F S256x128 .f32 := subf v (broadcastTo S256x128 mu broadcasts_S256x1_S256x128)
  have rs : FVec F S256x1 .f32 := rsqrt (addf var (broadcast S256x1 (Scalar.ofBits .f32 0x3727C5AC#32)))
  have nrm : FVec F S256x128 .f32 := mulf cen (broadcastTo S256x128 rs broadcasts_S256x1_S256x128)
  have sca : FVec F S256x128 .f32 := mulf nrm (broadcastTo S256x128 (shapeCast S1x128 gw shapeCasts_S1x128_S1x128) broadcasts_S1x128_S256x128)
  have z : FVec F S256x128 .f32 := addf sca (broadcastTo S256x128 (shapeCast S1x128 gb shapeCasts_S1x128_S1x128) broadcasts_S1x128_S256x128)
  have x1 : FVec F S256x128 .f32 := mulf z (logistic z)
  have x2 : FVec F S256x128 .f32 := mulf x1 (broadcastTo S256x128 (shapeCast S1x128 mw shapeCasts_S1x128_S1x128) broadcasts_S1x128_S256x128)
  mulf x2 (logistic x2)

/-- The sigmoid of a vector, at an index, is the sigmoid of the entry. -/
theorem logistic_apply {s : Shape} {φ : FTy} (a : FVec F s φ) (i : s.Idx) : logistic a i = FloatOps.logistic (a i) := rfl

/-- The reciprocal square root of a vector, at an index, is that of the entry. -/
theorem rsqrt_apply {s : Shape} {φ : FTy} (a : FVec F s φ) (i : s.Idx) : rsqrt a i = FloatOps.rsqrt (a i) := rfl

/-- At the extended reals, entry `(p, q)` of the chain is the group function of row `p` of the slice at lane `q`. -/
theorem chain_apply (v : FVec Ideal S256x128 .f32) (gw gb mw : Vec Ideal S1x128 .f32) (p : Fin 256) (q : Fin 128) :
    chain (F := Ideal) v gw gb mw (ix2 p q)
      = group (fun j => v (ix2 p j)) q (gw (ix2 (0 : Fin 1) q)) (gb (ix2 (0 : Fin 1) q)) (mw (ix2 (0 : Fin 1) q)) := by
  -- the two row sums, as plain sums over the lanes
  have hs : multiReduction (F := Ideal) .add [1] S256 v 0x00000000#32 reduces_S256x128_S256 (.inl rfl) rfl (ix1 p)
      = ∑ j : Fin 128, v (ix2 p j) :=
    LibKeepdims.multiReduction_add_rows v _ _ _ _ p
  have hq : multiReduction (F := Ideal) .add [1] S256 (mulf v v) 0x00000000#32 reduces_S256x128_S256 (.inl rfl) rfl (ix1 p)
      = ∑ j : Fin 128, v (ix2 p j) * v (ix2 p j) :=
    LibKeepdims.multiReduction_add_rows (mulf v v) _ _ _ _ p
  unfold chain
  simp only [mulf_apply, addf_apply, subf_apply, divf_apply, broadcast_apply, logistic_apply, rsqrt_apply,
    LibKeepdims.broadcastTo_a1_ab_apply, broadcastTo_1b_ab_apply, LibKeepdims.shapeCast_a_a1_apply, shapeCast_self, hs, hq]
  rfl

end Cert.GroupNormSwish

end
-- ==== Proof.Pieces.lean ====
/-
  The eight stored pieces of the kernel's output block are the group chain on eight slices.

  The kernel computes the 256 × 1024 linear block once and then, for each of the eight groups of 128 columns, cuts
  the group's slice out of it, runs the group chain with the group's slices of the three parameter rows, and stores
  the result over the same 128 columns of the output block.  The body's values are named by where the kernel reads
  them, so the eight groups come as eight differently nested terms; each is, by unfolding, the one chain
  `GroupNormSwish.chain` on the slice at the group's column offset.
-/
import proofs.«163070_j58128087384630_2_alg».proof.Proof.Gen.KernelIdeal.Skeleton
import proofs.«163070_j58128087384630_2_alg».proof.Proof.GroupChain

noncomputable section

namespace Cert.GroupNormSwish

open Cert.KernelIdeal Cert.KernelIdeal.Gen Idealize.ShloMosaic

variable {F : FTy → Type} [FloatOps F]

/-- Columns 0–127. -/
theorem piece_0 (a : Vec F S256x4096 .bf16) (b : Vec F S1024x4096 .bf16) (c : Vec F S1x1024 .f32) (gw gb mw : Vec F S1x128 .f32) :
    k0_pay4 (k0_pay2 a b c gw gb) (k0_pay3 mw)
      = chain (extractStridedSlice S256x128 ![0, 0] (k0_pay1 a b c) slices_S256x1024_o0_0_S256x128) gw gb mw := rfl

/-- Columns 128–255. -/
theorem piece_128 (h : FVec F S256x1024 .f32) (gw gb mw : Vec F S1x128 .f32) :
    k0_pay5 h gw gb mw = chain (extractStridedSlice S256x128 ![0, 128] h slices_S256x1024_o0_128_S256x128) gw gb mw := rfl

/-- Columns 256–383. -/
theorem piece_256 (h : FVec F S256x1024 .f32) (gw gb mw : Vec F S1x128 .f32) :
    k0_pay7 (k0_pay6 h) gw gb mw = chain (extractStridedSlice S256x128 ![0, 256] h slices_S256x1024_o0_256_S256x128) gw gb mw := rfl

/-- Columns 384–511. -/
theorem piece_384 (h : FVec F S256x1024 .f32) (gw gb mw : Vec F S1x128 .f32) :
    k0_pay11 (k0_pay8 h) (k0_pay9 h) (k0_pay10 h) (Scalar.ofBits .f32 0x43000000#32) gw gb mw
      = chain (extractStridedSlice S256x128 ![0, 384] h slices_S256x1024_o0_384_S256x128) gw gb mw := rfl

/-- Columns 512–639. -/
theorem piece_512 (h : FVec F S256x1024 .f32) (gw gb mw : Vec F S1x128 .f32) :
    k0_pay16 (k0_pay14 h) (k0_pay15 h) gw gb mw
      = chain (extractStridedSlice S256x128 ![0, 512] h slices_S256x1024_o0_512_S256x128) gw gb mw := rfl

/-- Columns 640–767. -/
theorem piece_640 (h : FVec F S256x1024 .f32) (gw gb mw : Vec F S1x128 .f32) :
    k0_pay18 (k0_pay17 h gw) gb mw = chain (extractStridedSlice S256x128 ![0, 640] h slices_S256x1024_o0_640_S256x128) gw gb mw := rfl

/-- Columns 768–895. -/
theorem piece_768 (h : FVec F S256x1024 .f32) (gw gb mw : Vec F S1x128 .f32) :
    k0_pay21 (k0_pay19 h gw gb) (k0_pay20 mw)
      = chain (extractStridedSlice S256x128 ![0, 768] h slices_S256x1024_o0_768_S256x128) gw gb mw := rfl

/-- Columns 896–1023. -/
theorem piece_896 (h : FVec F S256x1024 .f32) (gw gb mw : Vec F S1x128 .f32) :
    k0_pay22 h gw gb mw = chain (extractStridedSlice S256x128 ![0, 896] h slices_S256x1024_o0_896_S256x128) gw gb mw := rfl

end Cert.GroupNormSwish

end
-- ==== Proof.Block.lean ====
/-
  What one grid point leaves in the output block, as one function of the block's index.

  Column `n` of the 256 × 1024 block belongs to group `n / 128` of the block and is lane `n % 128` of it.  Entry
  `(p, n)` is the group function of the 128 entries of row `p` of the linear block in that group's columns, at that
  lane, with the three parameter rows read at column `n`.  Each of the eight stored pieces is that function on its own
  128 columns, and the eight pieces tile the block, so the block after the body is that function everywhere.
-/
import proofs.«163070_j58128087384630_2_alg».proof.Proof.Gen.KernelIdeal.Frame
import proofs.«163070_j58128087384630_2_alg».proof.Proof.Pieces

open scoped BigOperators

noncomputable section

namespace Cert.GroupNormSwish

open Cert.KernelIdeal Cert.KernelIdeal.Gen Idealize.ShloMosaic Idealize.ShloMosaic.ValueIdx

/-- Entry `(p, n)` of the output block from the linear block `H` and the three 1 × 1024 parameter rows. -/
def blockFn (H : FVec Ideal S256x1024 .f32) (gw gb mw : Vec Ideal S1x1024 .f32) (p : Fin 256) (n : Fin 1024) : EReal :=
  group (fun j : Fin 128 => H (ix2 p (⟨n.val / 128 * 128 + j.val, by have := n.isLt; have := j.isLt; omega⟩ : Fin 1024)))
    ⟨n.val % 128, Nat.mod_lt _ (by decide)⟩ (gw (ix2 (0 : Fin 1) n)) (gb (ix2 (0 : Fin 1) n)) (mw (ix2 (0 : Fin 1) n))

/-- The group function depends on its row and lane only through their values. -/
theorem group_congr {R1 R2 : Fin 128 → EReal} {q1 q2 : Fin 128} (a b c : EReal) (hR : R1 = R2) (hq : q1 = q2) :
    group R1 q1 a b c = group R2 q2 a b c := by subst hR; subst hq; rfl

/-- The piece stored over columns `o … o + 127` (`o` a multiple of 128): the chain on the slice of the linear block
    at `o`, with the parameter rows loaded at `o`, is the block function at column `o + q`. -/
theorem piece_reads (o : Nat) (ho : o % 128 = 0) (hb : o + 128 ≤ 1024)
    (hs : S256x1024.Slices ![0, o] S256x128)
    (inbP : ∀ a, (![0, o] : Fin 2 → Nat) a + S1x128.size a ≤ S1x1024.size a)
    (H : FVec Ideal S256x1024 .f32) (gw gb mw : Vec Ideal S1x1024 .f32) (p : Fin 256) (q : Fin 128) :
    chain (F := Ideal) (extractStridedSlice S256x128 ![0, o] H hs)
        (View.ld gw (Rect.unit (s := S1x1024) ![0, o] S1x128.size inbP))
        (View.ld gb (Rect.unit (s := S1x1024) ![0, o] S1x128.size inbP))
        (View.ld mw (Rect.unit (s := S1x1024) ![0, o] S1x128.size inbP)) (ix2 p q)
      = blockFn H gw gb mw p ⟨o + q.val, by have := q.isLt; omega⟩ := by
  have hq := q.isLt
  -- a parameter row loaded at `o`, at lane `q`, is the row at column `o + q`
  have hl : ∀ X : Vec Ideal S1x1024 .f32,
      View.ld X (Rect.unit (s := S1x1024) ![0, o] S1x128.size inbP) (ix2 (0 : Fin 1) q)
        = X (ix2 (0 : Fin 1) (⟨o + q.val, by omega⟩ : Fin 1024)) := fun X =>
    congrArg X (funext fun ax => Fin.ext (by
      match ax with
      | ⟨0, _⟩ => rfl
      | ⟨1, _⟩ => show o + 1 * q.val = o + q.val; omega))
  rw [chain_apply, hl gw, hl gb, hl mw]
  unfold blockFn
  refine group_congr _ _ _ (funext fun j => ?_) (Fin.ext ?_)
  · have hj := j.isLt
    refine (slice2_axis1_apply o H hs p j (⟨o + j.val, by omega⟩ : Fin 1024) rfl).trans ?_
    exact congrArg H (congrArg (ix2 p) (Fin.ext (by show o + j.val = (o + q.val) / 128 * 128 + j.val; omega)))
  · show q.val = (o + q.val) % 128; omega

/-- The same, in the form the canon of pieces asks: the piece at its own index `x` is the block function at the index
    the piece's rectangle places `x` at (row unchanged, column moved by `o`). -/
theorem piece_at (o : Nat) (ho : o % 128 = 0) (hb : o + 128 ≤ 1024)
    (hs : S256x1024.Slices ![0, o] S256x128)
    (inbP : ∀ a, (![0, o] : Fin 2 → Nat) a + S1x128.size a ≤ S1x1024.size a)
    (inbO : ∀ a, (![0, o] : Fin 2 → Nat) a + S256x128.size a ≤ S256x1024.size a)
    (H : FVec Ideal S256x1024 .f32) (gw gb mw : Vec Ideal S1x1024 .f32) (x : S256x128.Idx) :
    chain (F := Ideal) (extractStridedSlice S256x128 ![0, o] H hs)
        (View.ld gw (Rect.unit (s := S1x1024) ![0, o] S1x128.size inbP))
        (View.ld gb (Rect.unit (s := S1x1024) ![0, o] S1x128.size inbP))
        (View.ld mw (Rect.unit (s := S1x1024) ![0, o] S1x128.size inbP)) x
      = (fun y : S256x1024.Idx => blockFn H gw gb mw (y 0) (y 1))
          ((Rect.unit (s := S256x1024) ![0, o] S256x128.size inbO).emb x) := by
  obtain ⟨p, q, rfl⟩ : ∃ (p : Fin 256) (q : Fin 128), x = ix2 p q := ⟨x 0, x 1, eq_ix2 x⟩
  refine (piece_reads o ho hb hs inbP H gw gb mw p q).trans ?_
  exact congrArg₂ (blockFn H gw gb mw)
    (Fin.ext (by show p.val = 0 + 1 * p.val; omega))
    (Fin.ext (by show o + q.val = o + 1 * q.val; omega))

/-- The offsets `[0, 0]` are zero on both axes. -/
theorem zeros2 : (![0, 0] : Fin 2 → Nat) = fun _ => 0 :=
  funext fun a => by match a with | ⟨0, _⟩ => rfl | ⟨1, _⟩ => rfl

/-- THE BLOCK AFTER THE BODY: the output block a grid point leaves, from its six input blocks, is the block function
    of the linear block of the first three and the last three as parameter rows. -/
theorem block_apply (x0 : Vec Ideal S256x4096 .bf16) (x1 : Vec Ideal S1024x4096 .bf16) (x2 x3 x4 x5 : Vec Ideal S1x1024 .f32)
    (y : S256x1024.Idx) :
    out0_6 (F := Ideal) x0 x1 x2 x3 x4 x5 y = blockFn (k0_pay1 x0 x1 x2) x3 x4 x5 (y 0) (y 1) := by
  unfold out0_6
  simp only [View.ld_unit_zero (S := S256x4096) zeros2, View.ld_unit_zero (S := S1024x4096) zeros2,
    View.ld_unit_zero (S := S1x1024) zeros2]
  refine View.canon_apply_of_pieces (Val := Elt Ideal) (e := .f32)
    (fun y : S256x1024.Idx => blockFn (k0_pay1 x0 x1 x2) x3 x4 x5 (y 0) (y 1)) _ ?_ y
    (cover0_6 _ _ _ _ _ _ _ _ y)
  intro pc hpc x
  simp only [List.mem_cons, List.not_mem_nil, or_false] at hpc
  rcases hpc with rfl | rfl | rfl | rfl | rfl | rfl | rfl | rfl
  · exact (congrFun (piece_896 _ _ _ _) x).trans (piece_at 896 (by decide) (by decide) slices_S256x1024_o0_896_S256x128 inb_S1x1024_S1x128_0_896 inb_S256x1024_S256x128_0_896 _ _ _ _ x)
  · exact (congrFun (piece_768 _ _ _ _) x).trans (piece_at 768 (by decide) (by decide) slices_S256x1024_o0_768_S256x128 inb_S1x1024_S1x128_0_768 inb_S256x1024_S256x128_0_768 _ _ _ _ x)
  · exact (congrFun (piece_640 _ _ _ _) x).trans (piece_at 640 (by decide) (by decide) slices_S256x1024_o0_640_S256x128 inb_S1x1024_S1x128_0_640 inb_S256x1024_S256x128_0_640 _ _ _ _ x)
  · exact (congrFun (piece_512 _ _ _ _) x).trans (piece_at 512 (by decide) (by decide) slices_S256x1024_o0_512_S256x128 inb_S1x1024_S1x128_0_512 inb_S256x1024_S256x128_0_512 _ _ _ _ x)
  · exact (congrFun (piece_384 _ _ _ _) x).trans (piece_at 384 (by decide) (by decide) slices_S256x1024_o0_384_S256x128 inb_S1x1024_S1x128_0_384 inb_S256x1024_S256x128_0_384 _ _ _ _ x)
  · exact (congrFun (piece_256 _ _ _ _) x).trans (piece_at 256 (by decide) (by decide) slices_S256x1024_o0_256_S256x128 inb_S1x1024_S1x128_0_256 inb_S256x1024_S256x128_0_256 _ _ _ _ x)
  · exact (congrFun (piece_128 _ _ _ _) x).trans (piece_at 128 (by decide) (by decide) slices_S256x1024_o0_128_S256x128 inb_S1x1024_S1x128_0_128 inb_S256x1024_S256x128_0_128 _ _ _ _ x)
  · exact (congrFun (piece_0 _ _ _ _ _ _) x).trans (piece_at 0 (by decide) (by decide) slices_S256x1024_o0_0_S256x128 inb_S1x1024_S1x128_0_0 inb_S256x1024_S256x128_0_0 _ _ _ _ x)

end Cert.GroupNormSwish

end
-- ==== Proof.Linear.lean ====
/-
  The kernel's linear block, read at an index.

  The block is the product of a 256 × 4096 block of `x` with the transpose of a 1024 × 4096 block of `weight` — both
  contracted along their second axis, into a zero accumulator — plus the 1 × 1024 block of `bias` repeated down the
  rows.  At the extended reals its entry `(p, n)` is `(∑ k, a (p, k) * b (n, k)) + c (0, n)`: the accumulator's zero
  adds nothing, and the contraction's one axis is the sum over `k : Fin 4096`.
-/
import proofs.«163070_j58128087384630_2_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws

open scoped BigOperators

noncomputable section

namespace Cert.GroupNormSwish

open Cert.KernelIdeal Cert.KernelIdeal.Gen Idealize.ShloMosaic Idealize.ShloMosaic.ValueIdx

/-- The left operand's row coordinate is the result's row. -/
theorem lhs_row (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide),
    dif_pos (show (0 : Fin S256x4096.rank) ∈ dot_S256x4096_S1024x4096_S256x1024_1_1_0_0_n_n.lhsNonContracting by decide)]
  rfl

/-- The right operand's row coordinate is the result's column. -/
theorem rhs_row (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide),
    dif_pos (show (0 : Fin S1024x4096.rank) ∈ dot_S256x4096_S1024x4096_S256x1024_1_1_0_0_n_n.rhsNonContracting by decide)]
  rfl

/-- Entry `(p, n)` of the linear block at the extended reals. -/
theorem linear_apply (a : Vec Ideal S256x4096 .bf16) (b : Vec Ideal S1024x4096 .bf16) (c : Vec Ideal S1x1024 .f32)
    (p : Fin 256) (n : Fin 1024) :
    k0_pay1 (F := Ideal) a b c (ix2 p n) = (∑ k : Fin 4096, a (ix2 p k) * b (ix2 n k)) + c (ix2 (0 : Fin 1) n) := by
  unfold k0_pay1
  simp only [addf_apply, shapeCast_self, broadcastTo_1b_ab_apply]
  refine congrArg (· + c (ix2 (0 : Fin 1) n)) ?_
  refine (Ideal.matmul_constant_zero_apply (φ₁ := .bf16) (φ₂ := .bf16) dot_S256x4096_S1024x4096_S256x1024_1_1_0_0_n_n none a b (ix2 p n)).trans ?_
  rw [← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p n)
      ((contrEquiv1 dot_S256x4096_S1024x4096_S256x1024_1_1_0_0_n_n 4096 rfl rfl).symm k) = ix2 p k :=
    funext fun ax => Fin.ext (by
      match ax with
      | ⟨0, _⟩ => exact lhs_row _ _
      | ⟨1, _⟩ => exact (dot_S256x4096_S1024x4096_S256x1024_1_1_0_0_n_n.lhsIdx_val_of_single rfl _ _).trans hk)
  have er : dot_S256x4096_S1024x4096_S256x1024_1_1_0_0_n_n.rhsIdx (ix2 p n)
      ((contrEquiv1 dot_S256x4096_S1024x4096_S256x1024_1_1_0_0_n_n 4096 rfl rfl).symm k) = ix2 n k :=
    funext fun ax => Fin.ext (by
      match ax with
      | ⟨0, _⟩ => exact rhs_row _ _
      | ⟨1, _⟩ => exact (dot_S256x4096_S1024x4096_S256x1024_1_1_0_0_n_n.rhsIdx_val_of_single rfl _ _).trans hk)
  rw [el, er]

end Cert.GroupNormSwish

end
-- ==== Proof.BlockOfArrays.lean ====
/-
  The output block of a grid point is a block of the result array.

  Suppose the six input blocks are the blocks of six arrays at row tile `r0` (256 rows) and channel tile `c0`
  (1024 channels): the `x` block holds rows `256 r0 + p`, the `weight` block and the four parameter rows hold
  channels `1024 c0 + n`.  Then entry `(p, n)` of the output block is the result array's entry
  `(256 r0 + p, 1024 c0 + n)`.  A group never straddles two channel tiles (1024 is a multiple of 128): the group of
  block column `n` is the group of channel `1024 c0 + n`, and its lane is the same.
-/
import proofs.«163070_j58128087384630_2_alg».proof.Proof.Block
import proofs.«163070_j58128087384630_2_alg».proof.Proof.Linear

open scoped BigOperators

noncomputable section

namespace Cert.GroupNormSwish

open Cert.KernelIdeal Cert.KernelIdeal.Gen Idealize.ShloMosaic Idealize.ShloMosaic.ValueIdx

/-- The group function depends on its five arguments only through their values. -/
theorem group_congr_all {R1 R2 : Fin 128 → EReal} {q1 q2 : Fin 128} {a1 a2 b1 b2 c1 c2 : EReal}
    (hR : R1 = R2) (hq : q1 = q2) (ha : a1 = a2) (hb : b1 = b2) (hc : c1 = c2) :
    group R1 q1 a1 b1 c1 = group R2 q2 a2 b2 c2 := by subst hR hq ha hb hc; rfl

theorem block_of_arrays
    (X : S8192x4096.Idx → EReal) (W : S4096x4096.Idx → EReal) (B Gw Gb Mw : S4096.Idx → EReal)
    (x0 : Vec Ideal S256x4096 .bf16) (x1 : Vec Ideal S1024x4096 .bf16) (x2 x3 x4 x5 : Vec Ideal S1x1024 .f32)
    (r0 : Nat) (hr0 : r0 < 32) (c0 : Nat) (hc0 : c0 < 4)
    (h0 : ∀ (p : Fin 256) (k : Fin 4096), x0 (ix2 p k) = X (ix2 (⟨r0 * 256 + p.val, by have := p.isLt; omega⟩ : Fin 8192) k))
    (h1 : ∀ (n : Fin 1024) (k : Fin 4096), x1 (ix2 n k) = W (ix2 (⟨c0 * 1024 + n.val, by have := n.isLt; omega⟩ : Fin 4096) k))
    (h2 : ∀ n : Fin 1024, x2 (ix2 (0 : Fin 1) n) = B (ix1 (⟨c0 * 1024 + n.val, by have := n.isLt; omega⟩ : Fin 4096)))
    (h3 : ∀ n : Fin 1024, x3 (ix2 (0 : Fin 1) n) = Gw (ix1 (⟨c0 * 1024 + n.val, by have := n.isLt; omega⟩ : Fin 4096)))
    (h4 : ∀ n : Fin 1024, x4 (ix2 (0 : Fin 1) n) = Gb (ix1 (⟨c0 * 1024 + n.val, by have := n.isLt; omega⟩ : Fin 4096)))
    (h5 : ∀ n : Fin 1024, x5 (ix2 (0 : Fin 1) n) = Mw (ix1 (⟨c0 * 1024 + n.val, by have := n.isLt; omega⟩ : Fin 4096)))
    (p : Fin 256) (n : Fin 1024) :
    out0_6 (F := Ideal) x0 x1 x2 x3 x4 x5 (ix2 p n)
      = arrayFn X W B Gw Gb Mw (ix2 (⟨r0 * 256 + p.val, by have := p.isLt; omega⟩ : Fin 8192)
          (⟨c0 * 1024 + n.val, by have := n.isLt; omega⟩ : Fin 4096)) := by
  have hp := p.isLt
  have hn := n.isLt
  refine (block_apply x0 x1 x2 x3 x4 x5 (ix2 p n)).trans ?_
  show blockFn (k0_pay1 x0 x1 x2) x3 x4 x5 p n = _
  unfold blockFn arrayFn result
  refine group_congr_all (funext fun j => ?_) (Fin.ext ?_) ?_ ?_ ?_
  · -- the linear layer on the group's 128 channels
    have hj := j.isLt
    refine (linear_apply x0 x1 x2 p _).trans ?_
    unfold lin
    have hc : (⟨c0 * 1024 + (n.val / 128 * 128 + j.val), by omega⟩ : Fin 4096)
        = chan ⟨(c0 * 1024 + n.val) / 128, by omega⟩ j :=
      Fin.ext (by show c0 * 1024 + (n.val / 128 * 128 + j.val) = (c0 * 1024 + n.val) / 128 * 128 + j.val; omega)
    rw [h2, hc]
    refine congrArg (· + _) (Finset.sum_congr rfl fun k _ => ?_)
    rw [h0, h1, hc]
  · show n.val % 128 = (c0 * 1024 + n.val) % 128; omega
  · rw [h3]; exact congrArg Gw (congrArg ix1 (Fin.ext (by
      show c0 * 1024 + n.val = (c0 * 1024 + n.val) / 128 * 128 + (c0 * 1024 + n.val) % 128; omega)))
  · rw [h4]; exact congrArg Gb (congrArg ix1 (Fin.ext (by
      show c0 * 1024 + n.val = (c0 * 1024 + n.val) / 128 * 128 + (c0 * 1024 + n.val) % 128; omega)))
  · rw [h5]; exact congrArg Mw (congrArg ix1 (Fin.ext (by
      show c0 * 1024 + n.val = (c0 * 1024 + n.val) / 128 * 128 + (c0 * 1024 + n.val) % 128; omega)))

end Cert.GroupNormSwish

end
-- ==== Proof.WholeArray.lean ====
/-
  The kernel's result array after the run is the result function of its argument arrays.

  The region finds `x` and `weight` as launched (the change of float format before the call is the identity at the
  extended reals) and the four vectors as 1 × 4096 rows.  The grid is 4 channel tiles × 32 row tiles; at a point the `x`
  window holds the point's 256 rows, the `weight` window and the four parameter rows hold the point's 1024 channels,
  and the output window's block is the point's 256 × 1024 tile.  So what a point writes back is its tile of the result
  function (`block_of_arrays`); the 128 tiles cover the array; hence the array ends holding the result function.
-/
import proofs.«163070_j58128087384630_2_alg».proof.Proof.Gen.KernelIdeal.Value
import proofs.«163070_j58128087384630_2_alg».proof.Proof.BlockOfArrays
import Idealize.ShloMosaic.Lib.StableHlo.Run
import Idealize.ShloMosaic.Lib.ValueLayout

noncomputable section

namespace Cert.GroupNormSwish

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays as the region finds them -/

/-- `x`, after the change of float format. -/
theorem found_x (c : Dev nD) :
    (V m c main_v0 : S8192x4096.Idx → EReal) = (m ((c : Thread nD τ).loc main_arg0) : S8192x4096.Idx → EReal) := by
  dsimp only [V, hostOps0]; after_results; rfl

/-- `weight`, after the change of float format. -/
theorem found_w (c : Dev nD) :
    (V m c main_v1 : S4096x4096.Idx → EReal) = (m ((c : Thread nD τ).loc main_arg1) : S4096x4096.Idx → EReal) := by
  dsimp only [V, hostOps0]; after_results; rfl

/-- `bias` as a row. -/
theorem found_bias (c : Dev nD) :
    (V m c main_v2 : S1x4096.Idx → EReal)
      = shapeCast S1x4096 (m ((c : Thread nD τ).loc main_arg2) : S4096.Idx → EReal) shapeCasts_S4096_S1x4096 := by
  dsimp only [V, hostOps0]; after_results; rfl

/-- `gn_weight` as a row. -/
theorem found_gnw (c : Dev nD) :
    (V m c main_v3 : S1x4096.Idx → EReal)
      = shapeCast S1x4096 (m ((c : Thread nD τ).loc main_arg3) : S4096.Idx → EReal) shapeCasts_S4096_S1x4096 := by
  dsimp only [V, hostOps0]; after_results; rfl

/-- `gn_bias` as a row. -/
theorem found_gnb (c : Dev nD) :
    (V m c main_v4 : S1x4096.Idx → EReal)
      = shapeCast S1x4096 (m ((c : Thread nD τ).loc main_arg4) : S4096.Idx → EReal) shapeCasts_S4096_S1x4096 := by
  dsimp only [V, hostOps0]; after_results; rfl

/-- `multiply_weight` as a row. -/
theorem found_mul (c : Dev nD) :
    (V m c main_v5 : S1x4096.Idx → EReal)
      = shapeCast S1x4096 (m ((c : Thread nD τ).loc main_arg5) : S4096.Idx → EReal) shapeCasts_S4096_S1x4096 := by
  dsimp only [V, hostOps0]; after_results; rfl

/-! ## The grid -/

/-- The printed index maps, decided over the 128 points: the `x` window follows the output's row tile, the `weight`
    window and the four rows follow its channel tile, and the output's tile indices stay in range. -/
theorem tile_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = win0_6.index t (1 : Fin 2)
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_6.index t (0 : Fin 2) < 32 ∧ win0_6.index t (1 : Fin 2) < 4 :=
  (by decide +kernel : ∀ t : Fin grid0.N, _)

/-- Every tile is some point's. -/
theorem tile_onto : ∀ (q0 : Fin 32) (q1 : Fin 4), ∃ t : Fin cfg0.N, win0_6.index t = ![q0.val, q1.val] :=
  (by decide +kernel : ∀ (q0 : Fin 32) (q1 : Fin 4), ∃ t : Fin grid0.N, win0_6.index t = ![q0.val, q1.val])

/-- The result function of the argument arrays as launched. -/
abbrev resultOf (c : Dev nD) : S8192x4096.Idx → EReal :=
  arrayFn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A parameter row found by the region, read in the block of a point whose channel tile is `c0`. -/
theorem row_block (A : S4096.Idx → EReal) (R : S1x4096.Idx → EReal)
    (hR : R = shapeCast S1x4096 A shapeCasts_S4096_S1x4096) (v : Fin 4096) : R (ix2 (0 : Fin 1) v) = A (ix1 v) := by
  rw [hR]; exact shapeCast_a_1a_apply A shapeCasts_S4096_S1x4096 0 v

/-- WHAT POINT `t` WRITES BACK is tile `t` of the result function. -/
theorem flushed_eq (c : Dev nD) (t : Fin cfg0.N) :
    (dats m 0 c).flushed 6 t = ((cfg0.win 6).blk t).view.read (Elt Ideal) (resultOf m c) := by
  rw [Value.flushed6]
  obtain ⟨e00, e01, e10, e11, e20, e21, e30, e31, e40, e41, e50, e51, hr, hc⟩ := tile_facts t
  funext y
  obtain ⟨p, n, rfl⟩ : ∃ (p : Fin 256) (n : Fin 1024), y = ix2 p n := ⟨y 0, y 1, eq_ix2 y⟩
  show out0_6 (iblk m c 0 t) (iblk m c 1 t) (iblk m c 2 t) (iblk m c 3 t) (iblk m c 4 t) (iblk m c 5 t) (ix2 p n)
    = resultOf m c (((cfg0.win 6).blk t).view.emb (ix2 p n))
  have hp := p.isLt
  have hn := n.isLt
  refine (block_of_arrays (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))
    (iblk m c 0 t) (iblk m c 1 t) (iblk m c 2 t) (iblk m c 3 t) (iblk m c 4 t) (iblk m c 5 t)
    (win0_6.index t (0 : Fin 2)) hr (win0_6.index t (1 : Fin 2)) hc ?_ ?_ ?_ ?_ ?_ ?_ p n).trans ?_
  · intro p k
    have hp := p.isLt; have hk := k.isLt
    show V m c main_v0 (((cfg0.win 0).blk t).view.emb (ix2 p k)) = _
    rw [found_x]
    exact congrArg _ (funext fun a => Fin.ext (by
      match a with
      | ⟨0, _⟩ => show win0_0.index t (0 : Fin 2) * 256 + 1 * p.val = win0_6.index t (0 : Fin 2) * 256 + p.val; omega
      | ⟨1, _⟩ => show win0_0.index t (1 : Fin 2) * 4096 + 1 * k.val = k.val; omega))
  · intro n k
    have hn := n.isLt; have hk := k.isLt
    show V m c main_v1 (((cfg0.win 1).blk t).view.emb (ix2 n k)) = _
    rw [found_w]
    exact congrArg _ (funext fun a => Fin.ext (by
      match a with
      | ⟨0, _⟩ => show win0_1.index t (0 : Fin 2) * 1024 + 1 * n.val = win0_6.index t (1 : Fin 2) * 1024 + n.val; omega
      | ⟨1, _⟩ => show win0_1.index t (1 : Fin 2) * 4096 + 1 * k.val = k.val; omega))
  · intro n
    have hn := n.isLt
    show V m c main_v2 (((cfg0.win 2).blk t).view.emb (ix2 (0 : Fin 1) n)) = _
    refine Eq.trans (congrArg _ (funext fun a => Fin.ext ?_)) (row_block _ _ (found_bias m c) ⟨win0_6.index t (1 : Fin 2) * 1024 + n.val, by omega⟩)
    match a with
    | ⟨0, _⟩ => show win0_2.index t (0 : Fin 2) * 1 + 1 * 0 = 0; omega
    | ⟨1, _⟩ => show win0_2.index t (1 : Fin 2) * 1024 + 1 * n.val = win0_6.index t (1 : Fin 2) * 1024 + n.val; omega
  · intro n
    have hn := n.isLt
    show V m c main_v3 (((cfg0.win 3).blk t).view.emb (ix2 (0 : Fin 1) n)) = _
    refine Eq.trans (congrArg _ (funext fun a => Fin.ext ?_)) (row_block _ _ (found_gnw m c) ⟨win0_6.index t (1 : Fin 2) * 1024 + n.val, by omega⟩)
    match a with
    | ⟨0, _⟩ => show win0_3.index t (0 : Fin 2) * 1 + 1 * 0 = 0; omega
    | ⟨1, _⟩ => show win0_3.index t (1 : Fin 2) * 1024 + 1 * n.val = win0_6.index t (1 : Fin 2) * 1024 + n.val; omega
  · intro n
    have hn := n.isLt
    show V m c main_v4 (((cfg0.win 4).blk t).view.emb (ix2 (0 : Fin 1) n)) = _
    refine Eq.trans (congrArg _ (funext fun a => Fin.ext ?_)) (row_block _ _ (found_gnb m c) ⟨win0_6.index t (1 : Fin 2) * 1024 + n.val, by omega⟩)
    match a with
    | ⟨0, _⟩ => show win0_4.index t (0 : Fin 2) * 1 + 1 * 0 = 0; omega
    | ⟨1, _⟩ => show win0_4.index t (1 : Fin 2) * 1024 + 1 * n.val = win0_6.index t (1 : Fin 2) * 1024 + n.val; omega
  · intro n
    have hn := n.isLt
    show V m c main_v5 (((cfg0.win 5).blk t).view.emb (ix2 (0 : Fin 1) n)) = _
    refine Eq.trans (congrArg _ (funext fun a => Fin.ext ?_)) (row_block _ _ (found_mul m c) ⟨win0_6.index t (1 : Fin 2) * 1024 + n.val, by omega⟩)
    match a with
    | ⟨0, _⟩ => show win0_5.index t (0 : Fin 2) * 1 + 1 * 0 = 0; omega
    | ⟨1, _⟩ => show win0_5.index t (1 : Fin 2) * 1024 + 1 * n.val = win0_6.index t (1 : Fin 2) * 1024 + n.val; omega
  · exact congrArg (resultOf m c) (funext fun a => Fin.ext (by
      match a with
      | ⟨0, _⟩ => show win0_6.index t (0 : Fin 2) * 256 + p.val = win0_6.index t (0 : Fin 2) * 256 + 1 * p.val; omega
      | ⟨1, _⟩ => show win0_6.index t (1 : Fin 2) * 1024 + n.val = win0_6.index t (1 : Fin 2) * 1024 + 1 * n.val; omega))

/-- An index of the array is in point `t`'s tile iff each coordinate is in the tile's range on its axis. -/
theorem mem_tile (t : Fin cfg0.N) (i : S8192x4096.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v6).slice (win0_6.rect t)).set ↔ _
  rw [View.set_slice_whole, Rect.mem_set_unit]
  exact Iff.rfl

/-- THE TILES COVER THE ARRAY: entry `(b, c)` is in the tile of the point whose tile indices are `(b / 256, c / 1024)`. -/
theorem covered (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ := tile_onto ⟨(i 0).val / 256, by omega⟩ ⟨(i 1).val / 1024, by omega⟩
  have q0 : win0_6.index t (0 : Fin 2) = (i 0).val / 256 := congrFun ht 0
  have q1 : win0_6.index t (1 : Fin 2) = (i 1).val / 1024 := congrFun ht 1
  refine ⟨t, flush0_6 t, ?_⟩
  rw [mem_tile]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- THE ARRAY after the run is the result function of the arguments. -/
theorem final (c : Dev nD) : (dats m 0 c).arrAt 6 cfg0.N = resultOf m c :=
  (dats m 0 c).arrAt_eq_of_cover 6 (resultOf m c) (fun t _ => flushed_eq m c t) (covered)

/-- THE KERNEL'S RUN: it terminates with the result array at the result function of its arguments, the arguments unchanged. -/
theorem kernel_run : θ_run defs (onTc (τ := τ) (main (F := Ideal))) ⟨m, fun _ => 0, ρ⟩ fun r => ∀ c : Dev nD,
      r.2.mem ((c : Thread nD τ).loc main_v6) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.GroupNormSwish

end
-- ==== Proof.ReferenceValue.lean ====
/-
  The reference computes the result function.

  The reference lays the linear layer out as rows × 32 groups × 128 lanes, takes each group's sum and sum of squares
  (each from an initial zero), divides by 128, forms `(var + ε)^(-1/2)`, normalises, lays the result back out as
  rows × 4096 channels (channel `c` is lane `c % 128` of group `c / 128`), and applies the per-channel scale and shift,
  `z · σ(z)`, the per-channel multiplier and `z · σ(z)` again, with `σ` spelt `1 / (1 + e^(−z))`.  Stage by stage this is
  `GroupNormSwish.arrayFn` of the six arguments: the initial zeros add nothing, the spelt-out `σ` is the logistic
  function with its limits, and the two literals are the same words.
-/
import proofs.«163070_j58128087384630_2_alg».proof.Proof.Gen.ReferenceIdeal.Read
import proofs.«163070_j58128087384630_2_alg».proof.Proof.GroupNormSwish
import Idealize.ShloMosaic.Lib.IdealHost
import Idealize.ShloMosaic.PureOps.Ideal.Laws

open scoped BigOperators

noncomputable section

namespace Cert.GroupNormSwish.Reference

open Cert.ReferenceIdeal Cert.ReferenceIdeal.Read Cert.GroupNormSwish Idealize.ShloMosaic Idealize.ShloMosaic.ValueIdx

variable (x0 : (⟨S8192x4096, .f32⟩ : BufTy).Contents (Elt Ideal)) (x1 : (⟨S4096x4096, .f32⟩ : BufTy).Contents (Elt Ideal))
  (x2 x3 x4 x5 : (⟨S4096, .f32⟩ : BufTy).Contents (Elt Ideal))

/-- The linear layer of the arguments, in curried coordinates. -/
abbrev linOf (b : Fin 8192) (c : Fin 4096) : EReal :=
  lin (fun b k => x0 (ix2 b k)) (fun c k => x1 (ix2 c k)) (fun c => x2 (ix1 c)) b c

/-- A group's sum and sum of squares. -/
abbrev sumOf (b : Fin 8192) (g : Fin 32) : EReal := ∑ j : Fin 128, linOf x0 x1 x2 b (chan g j)
abbrev sqOf (b : Fin 8192) (g : Fin 32) : EReal := ∑ j : Fin 128, linOf x0 x1 x2 b (chan g j) * linOf x0 x1 x2 b (chan g j)

/-- The linear layer at row `b`, channel `c`. -/
theorem lin_at (b : Fin 8192) (c : Fin 4096) : val_main_v3 (F := Ideal) x0 x1 x2 (ix2 b c) = linOf x0 x1 x2 b c := by
  rw [val_main_v3_apply, val_main_v0_apply, val_main_v2_apply, val_main_v1_apply]
  have el : ∀ k : Fin 4096, lidx_main_v0 (ix2 b c) k = ix2 b k := fun k => funext fun a => Fin.ext (by
    match a with | ⟨0, _⟩ => rfl | ⟨1, _⟩ => rfl)
  have er : ∀ k : Fin 4096, ridx_main_v0 (ix2 b c) k = ix2 c k := fun k => funext fun a => Fin.ext (by
    match a with | ⟨0, _⟩ => rfl | ⟨1, _⟩ => rfl)
  have eb : idx_main_v1 (idx_main_v2 (ix2 b c)) = ix1 c := funext fun a => Fin.ext (by
    match a with | ⟨0, _⟩ => rfl)
  simp only [el, er, eb]
  rfl

/-- Regrouped: row `b`, group `g`, lane `j` is channel `128 g + j`. -/
theorem grouped_at (b : Fin 8192) (g : Fin 32) (j : Fin 128) :
    val_main_v4 (F := Ideal) x0 x1 x2 (ix3 b g j) = linOf x0 x1 x2 b (chan g j) := by
  have hb := b.isLt; have hg := g.isLt; have hj := j.isLt
  have e : idx_main_v4 (ix3 b g j) = ix2 b (chan g j) := funext fun a => Fin.ext (by
    match a with
    | ⟨0, _⟩ => show ((b.val * 32 + g.val) * 128 + j.val) / 4096 = b.val; omega
    | ⟨1, _⟩ => show ((b.val * 32 + g.val) * 128 + j.val) % 4096 = g.val * 128 + j.val; omega)
  rw [val_main_v4_apply, e]
  exact lin_at x0 x1 x2 b (chan g j)

/-- A group's sum: the initial zero adds nothing. -/
theorem sum_at (b : Fin 8192) (g : Fin 32) : val_main_v5 (F := Ideal) x0 x1 x2 (ix2 b g) = sumOf x0 x1 x2 b g := by
  rw [val_main_v5_apply, val_main_cst_apply]
  show Ideal.ofBits .f32 0x00000000#32 + _ = _
  rw [Ideal.ofBits_zero_f32, zero_add]
  refine Finset.sum_congr rfl fun j _ => ?_
  have e : idx_main_v5 (ix2 b g) j = ix3 b g j := funext fun a => Fin.ext (by
    match a with | ⟨0, _⟩ => rfl | ⟨1, _⟩ => rfl | ⟨2, _⟩ => rfl)
  rw [e]
  exact grouped_at x0 x1 x2 b g j

/-- A group's sum of squares. -/
theorem sq_at (b : Fin 8192) (g : Fin 32) : val_main_v10 (F := Ideal) x0 x1 x2 (ix2 b g) = sqOf x0 x1 x2 b g := by
  rw [val_main_v10_apply, val_main_cst_1_apply]
  show Ideal.ofBits .f32 0x00000000#32 + _ = _
  rw [Ideal.ofBits_zero_f32, zero_add]
  refine Finset.sum_congr rfl fun j _ => ?_
  have e : idx_main_v10 (ix2 b g) j = ix3 b g j := funext fun a => Fin.ext (by
    match a with | ⟨0, _⟩ => rfl | ⟨1, _⟩ => rfl | ⟨2, _⟩ => rfl)
  rw [e, val_main_v9_apply, grouped_at]
  rfl

/-- A group's mean, kept on a unit axis. -/
theorem mean_at (b : Fin 8192) (g : Fin 32) (u : Fin 1) :
    val_main_v8 (F := Ideal) x0 x1 x2 (ix3 b g u) = mean (sumOf x0 x1 x2 b g) := by
  have e : idx_main_v6 (ix3 b g u) = ix2 b g := funext fun a => Fin.ext (by
    match a with | ⟨0, _⟩ => rfl | ⟨1, _⟩ => rfl)
  rw [val_main_v8_apply, val_main_v6_apply, val_main_v7_apply, val_main_cst_0_apply, e, sum_at]
  rfl

/-- A group's `(var + ε)^(-1/2)`, kept on a unit axis. -/
theorem rstd_at (b : Fin 8192) (g : Fin 32) (u : Fin 1) :
    val_main_v20 (F := Ideal) x0 x1 x2 (ix3 b g u) = rstd (sumOf x0 x1 x2 b g) (sqOf x0 x1 x2 b g) := by
  have e : idx_main_v11 (ix3 b g u) = ix2 b g := funext fun a => Fin.ext (by
    match a with | ⟨0, _⟩ => rfl | ⟨1, _⟩ => rfl)
  rw [val_main_v20_apply, val_main_v19_apply, val_main_v15_apply, val_main_v13_apply, val_main_v14_apply,
    val_main_v11_apply, val_main_v12_apply, val_main_cst_2_apply, val_main_v18_apply, val_main_cst_3_apply, e, sq_at,
    mean_at]
  rfl

/-- The normalised entry at row `b`, group `g`, lane `j`. -/
theorem normed_at (b : Fin 8192) (g : Fin 32) (j : Fin 128) :
    val_main_v22 (F := Ideal) x0 x1 x2 (ix3 b g j)
      = (linOf x0 x1 x2 b (chan g j) - mean (sumOf x0 x1 x2 b g)) * rstd (sumOf x0 x1 x2 b g) (sqOf x0 x1 x2 b g) := by
  have e16 : idx_main_v16 (ix3 b g j) = ix3 b g (0 : Fin 1) := funext fun a => Fin.ext (by
    match a with | ⟨0, _⟩ => rfl | ⟨1, _⟩ => rfl | ⟨2, _⟩ => rfl)
  have e21 : idx_main_v21 (ix3 b g j) = ix3 b g (0 : Fin 1) := funext fun a => Fin.ext (by
    match a with | ⟨0, _⟩ => rfl | ⟨1, _⟩ => rfl | ⟨2, _⟩ => rfl)
  rw [val_main_v22_apply, val_main_v17_apply, val_main_v16_apply, val_main_v21_apply, e16, e21, grouped_at, mean_at,
    rstd_at]
  rfl

/-- Laid back out: channel `c` of row `b` is lane `c % 128` of group `c / 128`. -/
theorem flat_at (b : Fin 8192) (c : Fin 4096) :
    val_main_v23 (F := Ideal) x0 x1 x2 (ix2 b c)
      = val_main_v22 (F := Ideal) x0 x1 x2 (ix3 b (⟨c.val / 128, by have := c.isLt; omega⟩ : Fin 32)
          (⟨c.val % 128, Nat.mod_lt _ (by decide)⟩ : Fin 128)) := by
  have hb := b.isLt; have hc := c.isLt
  have e : idx_main_v23 (ix2 b c) = ix3 b (⟨c.val / 128, by omega⟩ : Fin 32) (⟨c.val % 128, Nat.mod_lt _ (by decide)⟩ : Fin 128) :=
    funext fun a => Fin.ext (by
      match a with
      | ⟨0, _⟩ => show (b.val * 4096 + c.val) / 4096 = b.val; omega
      | ⟨1, _⟩ => show (b.val * 4096 + c.val) / 128 % 32 = c.val / 128; omega
      | ⟨2, _⟩ => show (b.val * 4096 + c.val) % 128 = c.val % 128; omega)
  rw [val_main_v23_apply, e]

/-- A parameter vector repeated down the rows reads its channel's entry. -/
theorem gnw_at (b : Fin 8192) (c : Fin 4096) : val_main_v25 (F := Ideal) x3 (ix2 b c) = x3 (ix1 c) := by
  rw [val_main_v25_apply, val_main_v24_apply]
  exact congrArg x3 (funext fun a => Fin.ext (by match a with | ⟨0, _⟩ => rfl))

theorem gnb_at (b : Fin 8192) (c : Fin 4096) : val_main_v28 (F := Ideal) x4 (ix2 b c) = x4 (ix1 c) := by
  rw [val_main_v28_apply, val_main_v27_apply]
  exact congrArg x4 (funext fun a => Fin.ext (by match a with | ⟨0, _⟩ => rfl))

theorem mul_at (b : Fin 8192) (c : Fin 4096) : val_main_v38 (F := Ideal) x5 (ix2 b c) = x5 (ix1 c) := by
  rw [val_main_v38_apply, val_main_v37_apply]
  exact congrArg x5 (funext fun a => Fin.ext (by match a with | ⟨0, _⟩ => rfl))

/-- The spelt-out `1 / (1 + e^(−z))` with both ones the float word of one is the logistic function. -/
theorem spelt_logistic (z : EReal) :
    Ideal.div (Ideal.ofBits .f32 0x3F800000#32) (Ideal.ofBits .f32 0x3F800000#32 + Ideal.exp (-z)) = Ideal.logistic z := by
  rw [Ideal.ofBits_one_f32]; rfl

/-- THE REFERENCE'S RESULT at row `b`, channel `c` is the result function there. -/
theorem reference_at (b : Fin 8192) (c : Fin 4096) :
    val_main_v46 (F := Ideal) x0 x1 x2 x3 x4 x5 (ix2 b c) = arrayFn x0 x1 x2 x3 x4 x5 (ix2 b c) := by
  have hc := c.isLt
  -- lane `c % 128` of group `c / 128` is channel `c`
  have hcq : chan (⟨c.val / 128, by omega⟩ : Fin 32) (⟨c.val % 128, Nat.mod_lt _ (by decide)⟩ : Fin 128) = c :=
    Fin.ext (by show c.val / 128 * 128 + c.val % 128 = c.val; omega)
  -- the normalised entry, scaled and shifted
  have hz : val_main_v29 (F := Ideal) x0 x1 x2 x3 x4 (ix2 b c)
      = (linOf x0 x1 x2 b (chan ⟨c.val / 128, by omega⟩ ⟨c.val % 128, Nat.mod_lt _ (by decide)⟩)
            - mean (sumOf x0 x1 x2 b ⟨c.val / 128, by omega⟩))
          * rstd (sumOf x0 x1 x2 b ⟨c.val / 128, by omega⟩) (sqOf x0 x1 x2 b ⟨c.val / 128, by omega⟩)
          * x3 (ix1 (chan ⟨c.val / 128, by omega⟩ ⟨c.val % 128, Nat.mod_lt _ (by decide)⟩))
        + x4 (ix1 (chan ⟨c.val / 128, by omega⟩ ⟨c.val % 128, Nat.mod_lt _ (by decide)⟩)) := by
    rw [val_main_v29_apply, val_main_v26_apply, flat_at, normed_at, gnw_at, gnb_at, hcq]
    rfl
  -- first `z · σ(z)`
  have hs1 : val_main_v36 (F := Ideal) x0 x1 x2 x3 x4 (ix2 b c)
      = swish (val_main_v29 (F := Ideal) x0 x1 x2 x3 x4 (ix2 b c)) := by
    rw [val_main_v36_apply, val_main_v35_apply, val_main_v34_apply, val_main_cst_5_apply, val_main_v33_apply,
      val_main_v32_apply, val_main_cst_4_apply, val_main_v31_apply, val_main_v30_apply]
    exact congrArg (_ * ·) (spelt_logistic _)
  -- the per-channel multiplier
  have hm : val_main_v39 (F := Ideal) x0 x1 x2 x3 x4 x5 (ix2 b c)
      = swish (val_main_v29 (F := Ideal) x0 x1 x2 x3 x4 (ix2 b c))
          * x5 (ix1 (chan ⟨c.val / 128, by omega⟩ ⟨c.val % 128, Nat.mod_lt _ (by decide)⟩)) := by
    rw [val_main_v39_apply, hs1, mul_at, hcq]
    rfl
  -- second `z · σ(z)`
  have hs2 : val_main_v46 (F := Ideal) x0 x1 x2 x3 x4 x5 (ix2 b c)
      = swish (val_main_v39 (F := Ideal) x0 x1 x2 x3 x4 x5 (ix2 b c)) := by
    rw [val_main_v46_apply, val_main_v45_apply, val_main_v44_apply, val_main_cst_7_apply, val_main_v43_apply,
      val_main_v42_apply, val_main_cst_6_apply, val_main_v41_apply, val_main_v40_apply]
    exact congrArg (_ * ·) (spelt_logistic _)
  rw [hs2, hm, hz]
  rfl

/-- THE REFERENCE IS THE RESULT FUNCTION of its six arguments. -/
theorem reference_eq : val_main_v46 (F := Ideal) x0 x1 x2 x3 x4 x5 = arrayFn x0 x1 x2 x3 x4 x5 := by
  funext i
  obtain ⟨b, c, rfl⟩ : ∃ (b : Fin 8192) (c : Fin 4096), i = ix2 b c := ⟨i 0, i 1, eq_ix2 i⟩
  exact reference_at x0 x1 x2 x3 x4 x5 b c

end Cert.GroupNormSwish.Reference

end
-- ==== Proof.lean ====
/-
  A fused linear layer, group normalisation, and two `z · σ(z)` activations around a per-channel multiplier: the
  tiled kernel against the whole-array reference, over the extended reals.

  Both programs compute, for `x : 8192 × 4096`, `weight : 4096 × 4096` and four vectors of 4096 channels,
    `h b c = (∑ k, x b k * weight c k) + bias c`,
  normalise each row of `h` within each of its 32 groups of 128 consecutive channels by that group's
  `mean = (∑ h) / 128` and `(∑ h² / 128 − mean² + ε)^(-1/2)`, scale and shift per channel, apply `z ↦ z · σ(z)`, multiply
  per channel, and apply `z ↦ z · σ(z)` again (`GroupNormSwish.arrayFn`).

  The kernel does this tile by tile: 256 rows × 1024 channels per grid point, eight groups per tile, one matrix
  product per tile into a zero accumulator; a group never straddles two tiles because 1024 is a multiple of 128.  The
  reference does it on whole arrays through a rows × groups × lanes layout.  Nothing beyond reindexing joins them:
  the sums are the same sums over the same index sets, the zero accumulator and the zero initial values add nothing,
  a change of float format is the identity, the kernel's one-operation sigmoid is by definition the reference's
  `1 / (1 + e^(−z))` including at the infinities, and the two literals (128 and ε) are the same words on both sides.
  No step distributes, cancels or moves a factor across a sum, so the finiteness of the inputs is never used.

  `WholeArray.kernel_run`: the kernel's run ends with its result array at `arrayFn` of its arguments.
  `Reference.reference_eq`: the reference's result term is `arrayFn` of its arguments.
  The idealised kernel is the kernel's own text read at the extended reals (no rewrite was applied), so the
  idealisation conjunct is trivial.
-/
import proofs.«163070_j58128087384630_2_alg».proof.Defs
import proofs.«163070_j58128087384630_2_alg».proof.Proof.Gen.Kernel
import proofs.«163070_j58128087384630_2_alg».proof.Proof.Gen.Kernel.Skeleton
import proofs.«163070_j58128087384630_2_alg».proof.Proof.Gen.Kernel.Launch
import proofs.«163070_j58128087384630_2_alg».proof.Proof.Gen.Kernel.Points
import proofs.«163070_j58128087384630_2_alg».proof.Proof.Gen.Kernel.Frame
import proofs.«163070_j58128087384630_2_alg».proof.Proof.Gen.KernelIdeal
import proofs.«163070_j58128087384630_2_alg».proof.Proof.Gen.KernelIdeal.Skeleton
import proofs.«163070_j58128087384630_2_alg».proof.Proof.Gen.KernelIdeal.Launch
import proofs.«163070_j58128087384630_2_alg».proof.Proof.Gen.KernelIdeal.Points
import proofs.«163070_j58128087384630_2_alg».proof.Proof.Gen.KernelIdeal.Frame
import proofs.«163070_j58128087384630_2_alg».proof.Proof.Gen.ReferenceIdeal
import proofs.«163070_j58128087384630_2_alg».proof.Proof.Gen.Pre_finite_inputs
import proofs.«163070_j58128087384630_2_alg».proof.Proof.Gen.KernelIdeal.Value
import proofs.«163070_j58128087384630_2_alg».proof.Proof.Gen.ReferenceIdeal.Run
import proofs.«163070_j58128087384630_2_alg».proof.Proof.Gen.ReferenceIdeal.Read
import proofs.«163070_j58128087384630_2_alg».proof.Proof.WholeArray
import proofs.«163070_j58128087384630_2_alg».proof.Proof.ReferenceValue
import Idealize.ShloMosaic.Adequacy
import Idealize.ShloMosaic.Init

noncomputable section

namespace Cert.Proof

open Idealize.ShloMosaic Idealize.SL.Sem Cert.Kernel

/-- The kernel as printed terminates without a fault and leaves its arguments unchanged. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories agreeing on the six arguments, both runs end with their result arrays at the result function of
    the arguments: the kernel's by `kernel_run`, the reference's by its run and `reference_eq`. -/
theorem algebraic : Cert.algebraic_KernelIdeal_ReferenceIdeal := by
  intro m ρ m' ρ' _ hagree
  refine ⟨fun c => Cert.GroupNormSwish.resultOf m c, Cert.GroupNormSwish.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.GroupNormSwish.Reference.reference_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
